-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x64 : Shape := ⟨2, ![256, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x64 .f32) (main_arg3 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x64 : Shape := ⟨2, ![256, 64]⟩
abbrev S64 : Shape := ⟨1, ![64]⟩
abbrev S1x64 : Shape := ⟨2, ![1, 64]⟩
abbrev S10000x64 : Shape := ⟨2, ![10000, 64]⟩
abbrev S512x10000 : Shape := ⟨2, ![512, 10000]⟩
abbrev S512x64 : Shape := ⟨2, ![512, 64]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x64, .f32⟩
  | .hbm, ⟨3, _⟩ => ⟨S64, .f32⟩
  | .hbm, ⟨4, _⟩ => ⟨S1x64, .f32⟩
  | .hbm, ⟨5, _⟩ => ⟨S10000x64, .f32⟩
  | .local _ .vmem, ⟨0, _⟩ => ⟨S10000x256, .f32⟩
  | .local _ .vmem, ⟨1, _⟩ => ⟨S512x10000, .f32⟩
  | .local _ .vmem, ⟨2, _⟩ => ⟨S512x10000, .f32⟩
  | .local _ .vmem, ⟨3, _⟩ => ⟨S256x64, .f32⟩
  | .local _ .vmem, ⟨4, _⟩ => ⟨S1x64, .f32⟩
  | .local _ .vmem, ⟨5, _⟩ => ⟨S512x64, .f32⟩
  | .local _ .vmem, ⟨6, _⟩ => ⟨S512x64, .f32⟩
  | .local _ .vmem, ⟨7, _⟩ => ⟨S10000x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  inb_S10000x256_S10000x256_0_0 : ∀ a, (![0, 0] : Fin 2 → Nat) a + S10000x256.size a ≤ S10000x256.size a
  h_S10000x256 : 0 < S10000x256.numel
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S512x10000_S512x10000_0_0 : ∀ a, (![0, 0] : Fin 2 → Nat) a + S512x10000.size a ≤ S512x10000.size a
  h_S512x10000 : 0 < S512x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  inb_S512x64_S512x64_0_0 : ∀ a, (![0, 0] : Fin 2 → Nat) a + S512x64.size a ≤ S512x64.size a
  h_S512x64 : 0 < S512x64.numel
  dot_S10000x256_S256x64_S10000x64_1_0_0_1_n_n_wf : DotDims.WF S10000x256 S256x64 S10000x64 [1] [0] [0] [1] [] []
  dot_S512x10000_S10000x64_S512x64_1_0_0_1_n_n_wf : DotDims.WF S512x10000 S10000x64 S512x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x10000.size a < S10000x10000.size a
  hwx0_1 : ∀ i : grid0.Coords, EltTy.bits .f32 = 32 ∨ (Rect.unit (s := S10000x10000) (fun a => cc0_transform_1 i a * S512x10000.size a) (fun a => (Pipeline.Clip.of (cc0_transform_1 i a) (S512x10000.size a) (S10000x10000.size a)).extent (S512x10000.size a)) fun a => Pipeline.Clip.inb (Pipeline.Clip.ok_of (hstart0_1 i a))).WholeWords (EltTy.packing .f32)
  hwxs0_1 : ∀ i : grid0.Coords, EltTy.bits .f32 = 32 ∨ (Rect.unit (s := S512x10000) (fun _ => 0) (fun a => (Pipeline.Clip.of (cc0_transform_1 i a) (S512x10000.size a) (S10000x10000.size a)).extent (S512x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x64.size a < S10000x64.size a
  hwx0_4 : ∀ i : grid0.Coords, EltTy.bits .f32 = 32 ∨ (Rect.unit (s := S10000x64) (fun a => cc0_transform_4 i a * S512x64.size a) (fun a => (Pipeline.Clip.of (cc0_transform_4 i a) (S512x64.size a) (S10000x64.size a)).extent (S512x64.size a)) fun a => Pipeline.Clip.inb (Pipeline.Clip.ok_of (hstart0_4 i a))).WholeWords (EltTy.packing .f32)
  hwxs0_4 : ∀ i : grid0.Coords, EltTy.bits .f32 = 32 ∨ (Rect.unit (s := S512x64) (fun _ => 0) (fun a => (Pipeline.Clip.of (cc0_transform_4 i a) (S512x64.size a) (S10000x64.size a)).extent (S512x64.size a)) fun a => (Nat.zero_add _).trans_le (Pipeline.Clip.extent_le (Pipeline.Clip.ok_of (hstart0_4 i a)))).WholeWords (EltTy.packing .f32)

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S512x10000_S10000x64_S512x64_1_0_0_1_n_n : DotDims S512x10000 S10000x64 S512x64 where
  lhsContracting := [1]
  rhsContracting := [0]
  lhsNonContracting := [0]
  rhsNonContracting := [1]
  lhsBatch := []
  rhsBatch := []
  wf := dot_S512x10000_S10000x64_S512x64_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S512x64.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x64 : Shape := ⟨2, ![256, 64]⟩
abbrev S64 : Shape := ⟨1, ![64]⟩
abbrev S10000x64 : Shape := ⟨2, ![10000, 64]⟩
abbrev S1x64 : Shape := ⟨2, ![1, 64]⟩
abbrev S_ : Shape := ⟨0, ![]⟩
abbrev S10000 : Shape := ⟨1, ![10000]⟩
abbrev S10000x1 : Shape := ⟨2, ![10000, 1]⟩

abbrev nBuf : Space → Nat
  | .hbm => 24
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x64, .f32⟩
  | .hbm, ⟨3, _⟩ => ⟨S64, .f32⟩
  | .hbm, ⟨4, _⟩ => ⟨S10000x64, .f32⟩
  | .hbm, ⟨5, _⟩ => ⟨S10000x64, .f32⟩
  | .hbm, ⟨6, _⟩ => ⟨S1x64, .f32⟩
  | .hbm, ⟨7, _⟩ => ⟨S10000x64, .f32⟩
  | .hbm, ⟨8, _⟩ => ⟨S10000x64, .f32⟩
  | .hbm, ⟨9, _⟩ => ⟨S_, .f32⟩
  | .hbm, ⟨10, _⟩ => ⟨S10000, .f32⟩
  | .hbm, ⟨11, _⟩ => ⟨S_, .f32⟩
  | .hbm, ⟨12, _⟩ => ⟨S10000, .f32⟩
  | .hbm, ⟨13, _⟩ => ⟨S10000, .f32⟩
  | .hbm, ⟨14, _⟩ => ⟨S10000x1, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S_, .f32⟩
  | .hbm, ⟨19, _⟩ => ⟨S10000, .f32⟩
  | .hbm, ⟨20, _⟩ => ⟨S10000x1, .f32⟩
  | .hbm, ⟨21, _⟩ => ⟨S10000x1, .f32⟩
  | .hbm, ⟨22, _⟩ => ⟨S10000x64, .f32⟩
  | .hbm, ⟨23, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.BodyRunKernel.lean ====
/-
  The kernel body as a program on its six buffers, run symbolically in its two control cases.

  The body is called once per block of 512 adjacency rows. At the FIRST grid point it first computes the support matrix
  `x · W` from the feature buffer and the weight buffer and stores it, whole, into the scratch buffer; at every point it
  then loads the adjacency block, the scratch, and the bias row, and stores one whole block of results into the output
  buffer. So after the body the four input buffers hold what they held, the output buffer holds the result payload of
  (adjacency block, scratch AFTER the conditional store, bias row), and the scratch holds the support matrix (first
  point) or what it held (later points). Each case is stated on arbitrary whole buffers, with the list of stores each
  written buffer ends with found by running the body.
-/
import proofs.«170658_g17394617549188_cont_7to1_930_9_alg».proof.Proof.Gen.Kernel.Frame
import proofs.«170658_g17394617549188_cont_7to1_930_9_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's branch condition as the body computes it from the grid coordinate: "the block index is zero". -/
abbrev isFirst (i : grid0.Coords) : Prop :=
  (Scalar.cmpi .ne (Scalar.extui (Scalar.cmpi .eq (BitVec.ofNat 32 (i 0).val) 0#32)) 0#32) = 1#1

/-- Over the twenty grid points the condition holds exactly at point 0. -/
theorem isFirst_iff : ∀ t : Fin cfg0.N, isFirst (grid0.coords t) ↔ t.val = 0 :=
  (by decide +kernel : ∀ t : Fin grid0.N, isFirst (grid0.coords t) ↔ t.val = 0)

set_option maxHeartbeats 4000000 in
/-- FIRST POINT. From the four input buffers at `x0 … x3` and the output buffer and the scratch at anything, the body runs
    to the inputs unchanged, the output buffer with the stores `L4` written and the scratch with the stores `LS` written. -/
noncomputable def runFirst (c : Dev nD) (i : grid0.Coords)
    (arg1 : Memref sig .tc .vmem S10000x256 .f32) (harg1 : arg1.IsWhole) (arg2 : Memref sig .tc .vmem S512x10000 .f32) (harg2 : arg2.IsWhole)
    (arg3 : Memref sig .tc .vmem S256x64 .f32) (harg3 : arg3.IsWhole) (arg4 : Memref sig .tc .vmem S1x64 .f32) (harg4 : arg4.IsWhole)
    (arg5 : Memref sig .tc .vmem S512x64 .f32) (harg5 : arg5.IsWhole) (arg6 : Memref sig .tc .vmem S10000x64 .f32) (harg6 : arg6.IsWhole)
    (hc : isFirst i)
    (x0 : Vec F S10000x256 .f32) (x1 : Vec F S512x10000 .f32) (x2 : Vec F S256x64 .f32) (x3 : Vec F S1x64 .f32) :
    Σ' (L4 : List (View.Piece (Elt F) S512x64 .f32)), { LS : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__body i arg1 harg1 arg2 harg2 arg3 harg3 arg4 harg4 arg5 harg5 arg6 harg6) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

set_option maxHeartbeats 4000000 in
/-- LATER POINTS. From the four input buffers at `x0 … x3`, the scratch at `xs` and the output buffer at anything, the body
    runs to the inputs and the scratch unchanged and the output buffer with the stores `L4` written. -/
noncomputable def runLater (c : Dev nD) (i : grid0.Coords)
    (arg1 : Memref sig .tc .vmem S10000x256 .f32) (harg1 : arg1.IsWhole) (arg2 : Memref sig .tc .vmem S512x10000 .f32) (harg2 : arg2.IsWhole)
    (arg3 : Memref sig .tc .vmem S256x64 .f32) (harg3 : arg3.IsWhole) (arg4 : Memref sig .tc .vmem S1x64 .f32) (harg4 : arg4.IsWhole)
    (arg5 : Memref sig .tc .vmem S512x64 .f32) (harg5 : arg5.IsWhole) (arg6 : Memref sig .tc .vmem S10000x64 .f32) (harg6 : arg6.IsWhole)
    (hc : ¬isFirst i)
    (x0 : Vec F S10000x256 .f32) (x1 : Vec F S512x10000 .f32) (x2 : Vec F S256x64 .f32) (x3 : Vec F S1x64 .f32) (xs : Vec F S10000x64 .f32) :
    { L4 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.Kernel.Hand

end
-- ==== Proof.BodyPiecesKernel.lean ====
/-
  What the body's stores leave in the scratch and in the output buffer, as functions of what the body loaded.

  Each written buffer is stored once, whole, so reading it back gives that store's payload: the support payload of the
  feature and weight buffers for the scratch (first point), and the result payload of (adjacency buffer, scratch after
  the conditional store, bias buffer) for the output buffer. Every load is of a whole buffer and reads its contents.
-/
import proofs.«170658_g17394617549188_cont_7to1_930_9_alg».proof.Proof.BodyRunKernel
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two zero offsets, however spelt, are the zero function. -/
theorem hz2 : (![0, 0] : Fin 2 → Nat) = fun _ => 0 := funext fun a => by fin_cases a <;> rfl

/-- FIRST POINT, the scratch: its one whole-buffer store leaves the support payload of the feature and weight buffers. -/
theorem scr_first (c : Dev nD) (i : grid0.Coords)
    (arg1 : Memref sig .tc .vmem S10000x256 .f32) (harg1 : arg1.IsWhole) (arg2 : Memref sig .tc .vmem S512x10000 .f32) (harg2 : arg2.IsWhole)
    (arg3 : Memref sig .tc .vmem S256x64 .f32) (harg3 : arg3.IsWhole) (arg4 : Memref sig .tc .vmem S1x64 .f32) (harg4 : arg4.IsWhole)
    (arg5 : Memref sig .tc .vmem S512x64 .f32) (harg5 : arg5.IsWhole) (arg6 : Memref sig .tc .vmem S10000x64 .f32) (harg6 : arg6.IsWhole) (hc : isFirst i) (x0 : Vec F S10000x256 .f32) (x1 : Vec F S512x10000 .f32) (x2 : Vec F S256x64 .f32) (x3 : Vec F S1x64 .f32) (f : arg6.view.ty.Contents (Elt F)) :
    arg6.view.read (Elt F) (arg6.view.writes (Elt F) f (runFirst c i arg1 harg1 arg2 harg2 arg3 harg3 arg4 harg4 arg5 harg5 arg6 harg6 hc x0 x1 x2 x3).2.1) = k0_pay1 x0 x2 := by
  rw [View.read_writes_eq_canon _ _ _ (fun y => View.cover_of_tiledL _ S10000x64.size (by sl_kernel_rfl) y)]
  unfold runFirst; dsimp only; sl_unfold_words
  rw [View.canon_unit_zero hz2]
  simp only [View.readAt_eq_ld, harg1.read_unread, harg3.read_unread, View.ld_unit_zero (S := S10000x256) hz2, View.ld_unit_zero (S := S256x64) hz2]

/-- FIRST POINT, the output buffer: its one whole-buffer store leaves the result payload of the adjacency buffer, the support
    payload just stored into the scratch (read back whole), and the bias buffer. -/
theorem out_first (c : Dev nD) (i : grid0.Coords)
    (arg1 : Memref sig .tc .vmem S10000x256 .f32) (harg1 : arg1.IsWhole) (arg2 : Memref sig .tc .vmem S512x10000 .f32) (harg2 : arg2.IsWhole)
    (arg3 : Memref sig .tc .vmem S256x64 .f32) (harg3 : arg3.IsWhole) (arg4 : Memref sig .tc .vmem S1x64 .f32) (harg4 : arg4.IsWhole)
    (arg5 : Memref sig .tc .vmem S512x64 .f32) (harg5 : arg5.IsWhole) (arg6 : Memref sig .tc .vmem S10000x64 .f32) (harg6 : arg6.IsWhole) (hc : isFirst i) (x0 : Vec F S10000x256 .f32) (x1 : Vec F S512x10000 .f32) (x2 : Vec F S256x64 .f32) (x3 : Vec F S1x64 .f32) (f : arg5.view.ty.Contents (Elt F)) :
    arg5.view.read (Elt F) (arg5.view.writes (Elt F) f (runFirst c i arg1 harg1 arg2 harg2 arg3 harg3 arg4 harg4 arg5 harg5 arg6 harg6 hc x0 x1 x2 x3).1) = k0_pay2 x1 (k0_pay1 x0 x2) x3 := by
  rw [View.read_writes_eq_canon _ _ _ (fun y => View.cover_of_tiledL _ S512x64.size (by sl_kernel_rfl) y)]
  unfold runFirst; dsimp only; sl_unfold_words
  rw [View.canon_unit_zero hz2, View.readCov_unit_zero _ hz2]
  simp only [View.readAt_eq_ld, harg1.read_unread, harg2.read_unread, harg3.read_unread, harg4.read_unread,
    View.ld_unit_zero (S := S10000x256) hz2, View.ld_unit_zero (S := S256x64) hz2, View.ld_unit_zero (S := S512x10000) hz2,
    View.ld_unit_zero (S := S1x64) hz2]

/-- LATER POINTS, the output buffer: the result payload of the adjacency buffer, the scratch as found, and the bias buffer. -/
theorem out_later (c : Dev nD) (i : grid0.Coords)
    (arg1 : Memref sig .tc .vmem S10000x256 .f32) (harg1 : arg1.IsWhole) (arg2 : Memref sig .tc .vmem S512x10000 .f32) (harg2 : arg2.IsWhole)
    (arg3 : Memref sig .tc .vmem S256x64 .f32) (harg3 : arg3.IsWhole) (arg4 : Memref sig .tc .vmem S1x64 .f32) (harg4 : arg4.IsWhole)
    (arg5 : Memref sig .tc .vmem S512x64 .f32) (harg5 : arg5.IsWhole) (arg6 : Memref sig .tc .vmem S10000x64 .f32) (harg6 : arg6.IsWhole) (hc : ¬isFirst i) (x0 : Vec F S10000x256 .f32) (x1 : Vec F S512x10000 .f32) (x2 : Vec F S256x64 .f32) (x3 : Vec F S1x64 .f32) (xs : Vec F S10000x64 .f32) (f : arg5.view.ty.Contents (Elt F)) :
    arg5.view.read (Elt F) (arg5.view.writes (Elt F) f (runLater c i arg1 harg1 arg2 harg2 arg3 harg3 arg4 harg4 arg5 harg5 arg6 harg6 hc x0 x1 x2 x3 xs).1) = k0_pay2 x1 xs x3 := by
  rw [View.read_writes_eq_canon _ _ _ (fun y => View.cover_of_tiledL _ S512x64.size (by sl_kernel_rfl) y)]
  unfold runLater; dsimp only; sl_unfold_words
  rw [View.canon_unit_zero hz2]
  simp only [View.readAt_eq_ld, harg2.read_unread, harg4.read_unread, harg6.read_unread,
    View.ld_unit_zero (S := S512x10000) hz2, View.ld_unit_zero (S := S1x64) hz2, View.ld_unit_zero (S := S10000x64) hz2]

end Cert.Kernel.Hand

end
-- ==== Proof.FrameDataKernel.lean ====
/-
  What the kernel's buffers hold from grid point to grid point: the names the frame proof and the value proof share.

  The grid has twenty points, one per block of 512 adjacency rows; the last block has only 272 rows inside the array.
  * The feature, weight and bias buffers hold their whole arrays at every point.
  * The adjacency buffer holds, at point `t`, block `t` of the adjacency array on the rows that lie inside the array and
    words nothing names on the rows past its end (`adjFill … d`: the block filled out with `d`).
  * The scratch holds anything before the first point and the support matrix `x · W` — the support payload of the whole
    feature and weight arrays — after every point (`sup`): the first point stores it and no later point writes it.
  The invariant carried between points (`PhiS`) says exactly that of the scratch.
-/
import proofs.«170658_g17394617549188_cont_7to1_930_9_alg».proof.Proof.BodyPiecesKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, as the pipeline passes it to the body, and its wholeness. -/
abbrev ms0 (t : Fin cfg0.N) : Memref sig .tc .vmem S10000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x64 .f32 := win0_4.stage (cfg0.slots t 4)
abbrev hs4 (t : Fin cfg0.N) : (ms4 t).IsWhole := hstage0_4 ((cfg0.slots t 4).cast nbuf0_4)
/-- The scratch buffer, whole. -/
abbrev scM : Memref sig .tc .vmem S10000x64 .f32 := Memref.whole cc0_scratch0

/-- The region's own invariant, with the scratch as a whole buffer owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The first grid point. -/
abbrev t0 : Fin cfg0.N := ⟨0, lt_of_lt_of_eq (by decide : 0 < 20) N_0.symm⟩

/-- THE SUPPORT MATRIX as the first point computes it: the support payload of the feature array and the weight array. -/
def sup (c : Dev nD) : Vec F S10000x64 .f32 := k0_pay1 (iblk m c 0 t0) (iblk m c 2 t0)

/-- A filler for the rows of the adjacency buffer past the array's end: the zero word (nothing reads it). -/
def zeroFill : S512x10000.Idx → Elt F .f32 := fun _ => Scalar.ofBits .f32 0#32

/-- The adjacency buffer at point `t`: block `t` of the array on the rows inside it, `d` on the rows past its end. -/
def adjFill (c : Dev nD) (t : Fin cfg0.N) (d : S512x10000.Idx → Elt F .f32) : Vec F S512x10000 .f32 :=
  (cfg0.win 1).fill (cfg0.grid.coords t) d (iblk m c 1 t)

/-- Its part inside the array is the block, whatever the filler. -/
theorem cut_adjFill (c : Dev nD) (t : Fin cfg0.N) (d : S512x10000.Idx → Elt F .f32) :
    (cfg0.win 1).cut (cfg0.grid.coords t) (adjFill m c t d) = iblk m c 1 t :=
  (cfg0.win 1).cut_fill _ _ _

/-- Filling the part inside the array of one filled block out with another filler gives the block filled with that one. -/
theorem fill_cut_adjFill (c : Dev nD) (t : Fin cfg0.N) (d d' : S512x10000.Idx → Elt F .f32) :
    (cfg0.win 1).fill (cfg0.grid.coords t) d ((cfg0.win 1).cut (cfg0.grid.coords t) (adjFill m c t d')) = adjFill m c t d := by
  rw [cut_adjFill]; rfl

/-- THE INVARIANT before position `n`: before the first point the region's own (the scratch at anything); afterwards the
    scratch at the support matrix, and the generator register at some state. -/
def PhiS (c : Dev nD) : (n : ℕ) → n ≤ cfg0.N → sProp 𝕄
  | 0, _ => Pipeline.ΦA spec0 c
  | _ + 1, _ => iprop(iprop(owns (c : Thread nD τ) scM fullShare (sup m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scM fullShare (sup m c)) ∗ (∃ r, prngReg c r)) := rfl

theorem PhiS_pos (c : Dev nD) (n : ℕ) (h : n ≤ cfg0.N) (hz : n ≠ 0) :
    PhiS m c n h = iprop(iprop(owns (c : Thread nD τ) scM fullShare (sup m c)) ∗ (∃ r, prngReg c r)) := by
  cases n with
  | zero => exact absurd rfl hz
  | succ n => rfl

/-- The output window is never fetched (it is an output). -/
theorem fetch0_4 : ∀ t : Fin cfg0.N, (cfg0.win 4).fetch t = false :=
  (by decide +kernel : ∀ t : Fin grid0.N, win0_4.fetch t = false)

end Cert.Kernel.Hand

end
-- ==== Proof.FrameForget.lean ====
/-
  The frame of the program as printed (any float instance): it runs to the end, faults nowhere, and leaves its four argument
  arrays unchanged.

  The proof data are those of the value proof with ONE difference: nothing is said of what the body leaves in the output
  buffer. The rows of the adjacency buffer past the array's end hold words nothing names, the body computes result rows from
  them too, and at a bit-exact float instance no law says the rows inside the array are independent of them — so the output
  window is handed to the body at arbitrary contents and taken back at arbitrary contents, and the run's post speaks of the
  input arrays only. Everything else — the inputs found at their blocks, the scratch at the support payload after the first
  point — is as in the value proof.
-/
import proofs.«170658_g17394617549188_cont_7to1_930_9_alg».proof.Proof.FrameDataKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not named: the output window alone. -/
abbrev fgt : Fin cfg0.W → Bool := fun | 0 => false | 1 => false | 2 => false | 3 => false | 4 => true | ⟨_ + 5, h⟩ => absurd h (Nat.not_lt.2 (Nat.le_add_left _ _))

/-- THE PROOF DATA of the one pipeline on core `c`, the output buffer's contents left unnamed (the zero word stands there
    and is never read). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => adjFill m c t zeroFill
    | ⟨2, _⟩ => iblk m c 2 t
    | ⟨3, _⟩ => iblk m c 3 t
    | ⟨4, _⟩ => fun _ => Scalar.ofBits .f32 0#32
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = adjFill m c t zeroFill := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- The three whole-array inputs are found at their arrays at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The adjacency buffer is fetched at every point: the body finds block `t` filled out with what the buffer held. -/
theorem before0_1 (c : Dev nD) (t : Fin cfg0.N) (d) : (dats m 0 c).before 1 t d = adjFill m c t d := by
  unfold Dat.before; rw [if_pos (fetch0_1 t)]
  unfold Dat.fetched Dat.blockOf adjFill iblk
  rw [A_eq]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ X, owns (c : Thread nD τ) (ms4 t) fullShare X))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare ((cfg0.win 1).fill (cfg0.grid.coords t) d ((cfg0.win 1).cut (cfg0.grid.coords t) ((dats m 0 c).after 1 t))))
    ∗ owns (c : Thread nD τ) (ms2 t) fullShare ((dats m 0 c).after 2 t)
    ∗ owns (c : Thread nD τ) (ms3 t) fullShare ((dats m 0 c).after 3 t)
    ∗ (∃ X, owns (c : Thread nD τ) (ms4 t) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3, fill_cut_adjFill]
  rw [show (dats m 0 c).owesAt () t.succ = (dats m 0 c).owesAt () t.castSucc from rfl]
  rw [show (dats m 0 c).Φ t.succ = PhiS m c (t.val + 1) t.isLt from rfl, PhiS_succ]
  by_cases hz : t.val = 0
  · have ht : t = t0 := Fin.ext hz
    subst ht
    rw [PhiS_castSucc m c t0, PhiS_zero m c _ _ rfl, PhiA_eq]
    iintro ⟨⟨HS, Hg⟩, Ho, ⟨%d0, H0⟩, ⟨%d1, H1⟩, ⟨%d2, H2⟩, ⟨%d3, H3⟩, ⟨%d4, H4⟩⟩
    iapply ((runFirst c (grid0.coords t0) _ _ _ _ _ _ _ _ _ _ _ _ ((isFirst_iff t0).mpr rfl) (iblk m c 0 t0) (adjFill m c t0 d1) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact scr_first _ _ _ _ _ _ _ _ _ _ _ _ _ _ _ _ _ _ _ _
      iexact Hg
    isplitl [Ho]; · iexact Ho
    isplitl [H0]; · iexact H0
    isplitl [H1]
    · iexists d1
      have e : (win0 1).fill (grid0.coords t0) d1 ((win0 1).cut (grid0.coords t0) (adjFill m c t0 zeroFill)) = adjFill m c t0 d1 :=
        fill_cut_adjFill m c t0 d1 zeroFill
      first | iexact H1 | (rw [e]; iexact H1)
    isplitl [H2]; · iexact H2
    isplitl [H3]; · iexact H3
    iexists _
    unfold owns; iexists _; isplitr
    swap; · iexact H4
    ipureintro; rfl
  · rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply ((runLater c (grid0.coords t) _ _ _ _ _ _ _ _ _ _ _ _ (fun h => hz ((isFirst_iff t).mp h)) (iblk m c 0 t) (adjFill m c t d1) (iblk m c 2 t) (iblk m c 3 t) (sup m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hg]
    · isplitl [HS]; · iexact HS
      iexact Hg
    isplitl [Ho]; · iexact Ho
    isplitl [H0]; · iexact H0
    isplitl [H1]
    · iexists d1
      have e : (win0 1).fill (grid0.coords t) d1 ((win0 1).cut (grid0.coords t) (adjFill m c t zeroFill)) = adjFill m c t d1 :=
        fill_cut_adjFill m c t d1 zeroFill
      first | iexact H1 | (rw [e]; iexact H1)
    isplitl [H2]; · iexact H2
    isplitl [H3]; · iexact H3
    iexists _
    unfold owns; iexists _; isplitr
    swap; · iexact H4
    ipureintro; rfl

/-- The library's body obligation at every point, the output window forgotten. -/
theorem body_obligation (c : Dev nD) :
    BodyObligationLoose (dats (F := F) m 0 c) (defs₀ (F := F)) Variants.none () Set.univ fgt := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the region's own back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 20 := N_0; omega), PhiA_eq]
  iintro ⟨HS, Hg⟩
  isplitl [HS]
  · iexists _; iexact HS
  iexact Hg

set_option backward.isDefEq.respectTransparency.types false in
/-- THE RUN, the output window's array unconstrained: every weakly fair execution terminates, each input array ends at its entry
    contents and every buffer the region bypasses as the region found it. -/
theorem run_main :
    θ_run defs (onTc (τ := τ) (main (F := F))) (s₀ m ρ) (Pipeline.RDat.FramePost cfg0 (fun c => (dats m 0 c).toRForget fgt) (V m)) :=
  Pipeline.RDat.θ_run_frame_track cfgs (0 : Fin 1) launch0 defs₀ Variants.none (fun c => (dats m 0 c).toRForget fgt) m ρ main
    (hbody := fun c => (body_obligation m c).toRForget) (hshare := fun c => (dats m 0 c).share_full fun _ => rfl)
    (howed := fun _ _ => rfl) (V := V m) (hmain := hmain m Variants.none) (hA := A_eq m) (hin := hin m) (hout := hout m)

/-- THE FRAME: the program runs and its four argument arrays end unchanged (an input window's array is never written; the
    bias vector is no window's array and bypasses the region). -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((congrFun (((dats m 0 c).toRForget fgt).ArrAt_in 0 rfl _) _).mp ((h c).1 0)).trans ((A_eq m c 0).trans (V_main_arg0 m c)),
     ((congrFun (((dats m 0 c).toRForget fgt).ArrAt_in 1 rfl _) _).mp ((h c).1 1)).trans ((A_eq m c 1).trans (V_main_arg1 m c)),
     ((congrFun (((dats m 0 c).toRForget fgt).ArrAt_in 2 rfl _) _).mp ((h c).1 2)).trans ((A_eq m c 2).trans (V_main_arg2 m c)),
     ((h c).2 main_arg3 (Pipeline.mem_restRefs_of main_arg3 (by decide) (by decide))).trans (V_main_arg3 m c)⟩) (run_main m ρ)

end Cert.Kernel.Hand

end
-- ==== Proof.BodyRunKernelIdeal.lean ====
/-
  The kernel body as a program on its six buffers, run symbolically in its two control cases.

  The body is called once per block of 512 adjacency rows. At the FIRST grid point it first computes the support matrix
  `x · W` from the feature buffer and the weight buffer and stores it, whole, into the scratch buffer; at every point it
  then loads the adjacency block, the scratch, and the bias row, and stores one whole block of results into the output
  buffer. So after the body the four input buffers hold what they held, the output buffer holds the result payload of
  (adjacency block, scratch AFTER the conditional store, bias row), and the scratch holds the support matrix (first
  point) or what it held (later points). Each case is stated on arbitrary whole buffers, with the list of stores each
  written buffer ends with found by running the body.
-/
import proofs.«170658_g17394617549188_cont_7to1_930_9_alg».proof.Proof.Gen.KernelIdeal.Frame
import proofs.«170658_g17394617549188_cont_7to1_930_9_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's branch condition as the body computes it from the grid coordinate: "the block index is zero". -/
abbrev isFirst (i : grid0.Coords) : Prop :=
  (Scalar.cmpi .ne (Scalar.extui (Scalar.cmpi .eq (BitVec.ofNat 32 (i 0).val) 0#32)) 0#32) = 1#1

/-- Over the twenty grid points the condition holds exactly at point 0. -/
theorem isFirst_iff : ∀ t : Fin cfg0.N, isFirst (grid0.coords t) ↔ t.val = 0 :=
  (by decide +kernel : ∀ t : Fin grid0.N, isFirst (grid0.coords t) ↔ t.val = 0)

set_option maxHeartbeats 4000000 in
/-- FIRST POINT. From the four input buffers at `x0 … x3` and the output buffer and the scratch at anything, the body runs
    to the inputs unchanged, the output buffer with the stores `L4` written and the scratch with the stores `LS` written. -/
noncomputable def runFirst (c : Dev nD) (i : grid0.Coords)
    (arg1 : Memref sig .tc .vmem S10000x256 .f32) (harg1 : arg1.IsWhole) (arg2 : Memref sig .tc .vmem S512x10000 .f32) (harg2 : arg2.IsWhole)
    (arg3 : Memref sig .tc .vmem S256x64 .f32) (harg3 : arg3.IsWhole) (arg4 : Memref sig .tc .vmem S1x64 .f32) (harg4 : arg4.IsWhole)
    (arg5 : Memref sig .tc .vmem S512x64 .f32) (harg5 : arg5.IsWhole) (arg6 : Memref sig .tc .vmem S10000x64 .f32) (harg6 : arg6.IsWhole)
    (hc : isFirst i)
    (x0 : Vec F S10000x256 .f32) (x1 : Vec F S512x10000 .f32) (x2 : Vec F S256x64 .f32) (x3 : Vec F S1x64 .f32) :
    Σ' (L4 : List (View.Piece (Elt F) S512x64 .f32)), { LS : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__body i arg1 harg1 arg2 harg2 arg3 harg3 arg4 harg4 arg5 harg5 arg6 harg6) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

set_option maxHeartbeats 4000000 in
/-- LATER POINTS. From the four input buffers at `x0 … x3`, the scratch at `xs` and the output buffer at anything, the body
    runs to the inputs and the scratch unchanged and the output buffer with the stores `L4` written. -/
noncomputable def runLater (c : Dev nD) (i : grid0.Coords)
    (arg1 : Memref sig .tc .vmem S10000x256 .f32) (harg1 : arg1.IsWhole) (arg2 : Memref sig .tc .vmem S512x10000 .f32) (harg2 : arg2.IsWhole)
    (arg3 : Memref sig .tc .vmem S256x64 .f32) (harg3 : arg3.IsWhole) (arg4 : Memref sig .tc .vmem S1x64 .f32) (harg4 : arg4.IsWhole)
    (arg5 : Memref sig .tc .vmem S512x64 .f32) (harg5 : arg5.IsWhole) (arg6 : Memref sig .tc .vmem S10000x64 .f32) (harg6 : arg6.IsWhole)
    (hc : ¬isFirst i)
    (x0 : Vec F S10000x256 .f32) (x1 : Vec F S512x10000 .f32) (x2 : Vec F S256x64 .f32) (x3 : Vec F S1x64 .f32) (xs : Vec F S10000x64 .f32) :
    { L4 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.KernelIdeal.Hand

end
-- ==== Proof.BodyPiecesKernelIdeal.lean ====
/-
  What the body's stores leave in the scratch and in the output buffer, as functions of what the body loaded.

  Each written buffer is stored once, whole, so reading it back gives that store's payload: the support payload of the
  feature and weight buffers for the scratch (first point), and the result payload of (adjacency buffer, scratch after
  the conditional store, bias buffer) for the output buffer. Every load is of a whole buffer and reads its contents.
-/
import proofs.«170658_g17394617549188_cont_7to1_930_9_alg».proof.Proof.BodyRunKernelIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two zero offsets, however spelt, are the zero function. -/
theorem hz2 : (![0, 0] : Fin 2 → Nat) = fun _ => 0 := funext fun a => by fin_cases a <;> rfl

/-- FIRST POINT, the scratch: its one whole-buffer store leaves the support payload of the feature and weight buffers. -/
theorem scr_first (c : Dev nD) (i : grid0.Coords)
    (arg1 : Memref sig .tc .vmem S10000x256 .f32) (harg1 : arg1.IsWhole) (arg2 : Memref sig .tc .vmem S512x10000 .f32) (harg2 : arg2.IsWhole)
    (arg3 : Memref sig .tc .vmem S256x64 .f32) (harg3 : arg3.IsWhole) (arg4 : Memref sig .tc .vmem S1x64 .f32) (harg4 : arg4.IsWhole)
    (arg5 : Memref sig .tc .vmem S512x64 .f32) (harg5 : arg5.IsWhole) (arg6 : Memref sig .tc .vmem S10000x64 .f32) (harg6 : arg6.IsWhole) (hc : isFirst i) (x0 : Vec F S10000x256 .f32) (x1 : Vec F S512x10000 .f32) (x2 : Vec F S256x64 .f32) (x3 : Vec F S1x64 .f32) (f : arg6.view.ty.Contents (Elt F)) :
    arg6.view.read (Elt F) (arg6.view.writes (Elt F) f (runFirst c i arg1 harg1 arg2 harg2 arg3 harg3 arg4 harg4 arg5 harg5 arg6 harg6 hc x0 x1 x2 x3).2.1) = k0_pay1 x0 x2 := by
  rw [View.read_writes_eq_canon _ _ _ (fun y => View.cover_of_tiledL _ S10000x64.size (by sl_kernel_rfl) y)]
  unfold runFirst; dsimp only; sl_unfold_words
  rw [View.canon_unit_zero hz2]
  simp only [View.readAt_eq_ld, harg1.read_unread, harg3.read_unread, View.ld_unit_zero (S := S10000x256) hz2, View.ld_unit_zero (S := S256x64) hz2]

/-- FIRST POINT, the output buffer: its one whole-buffer store leaves the result payload of the adjacency buffer, the support
    payload just stored into the scratch (read back whole), and the bias buffer. -/
theorem out_first (c : Dev nD) (i : grid0.Coords)
    (arg1 : Memref sig .tc .vmem S10000x256 .f32) (harg1 : arg1.IsWhole) (arg2 : Memref sig .tc .vmem S512x10000 .f32) (harg2 : arg2.IsWhole)
    (arg3 : Memref sig .tc .vmem S256x64 .f32) (harg3 : arg3.IsWhole) (arg4 : Memref sig .tc .vmem S1x64 .f32) (harg4 : arg4.IsWhole)
    (arg5 : Memref sig .tc .vmem S512x64 .f32) (harg5 : arg5.IsWhole) (arg6 : Memref sig .tc .vmem S10000x64 .f32) (harg6 : arg6.IsWhole) (hc : isFirst i) (x0 : Vec F S10000x256 .f32) (x1 : Vec F S512x10000 .f32) (x2 : Vec F S256x64 .f32) (x3 : Vec F S1x64 .f32) (f : arg5.view.ty.Contents (Elt F)) :
    arg5.view.read (Elt F) (arg5.view.writes (Elt F) f (runFirst c i arg1 harg1 arg2 harg2 arg3 harg3 arg4 harg4 arg5 harg5 arg6 harg6 hc x0 x1 x2 x3).1) = k0_pay2 x1 (k0_pay1 x0 x2) x3 := by
  rw [View.read_writes_eq_canon _ _ _ (fun y => View.cover_of_tiledL _ S512x64.size (by sl_kernel_rfl) y)]
  unfold runFirst; dsimp only; sl_unfold_words
  rw [View.canon_unit_zero hz2, View.readCov_unit_zero _ hz2]
  simp only [View.readAt_eq_ld, harg1.read_unread, harg2.read_unread, harg3.read_unread, harg4.read_unread,
    View.ld_unit_zero (S := S10000x256) hz2, View.ld_unit_zero (S := S256x64) hz2, View.ld_unit_zero (S := S512x10000) hz2,
    View.ld_unit_zero (S := S1x64) hz2]

/-- LATER POINTS, the output buffer: the result payload of the adjacency buffer, the scratch as found, and the bias buffer. -/
theorem out_later (c : Dev nD) (i : grid0.Coords)
    (arg1 : Memref sig .tc .vmem S10000x256 .f32) (harg1 : arg1.IsWhole) (arg2 : Memref sig .tc .vmem S512x10000 .f32) (harg2 : arg2.IsWhole)
    (arg3 : Memref sig .tc .vmem S256x64 .f32) (harg3 : arg3.IsWhole) (arg4 : Memref sig .tc .vmem S1x64 .f32) (harg4 : arg4.IsWhole)
    (arg5 : Memref sig .tc .vmem S512x64 .f32) (harg5 : arg5.IsWhole) (arg6 : Memref sig .tc .vmem S10000x64 .f32) (harg6 : arg6.IsWhole) (hc : ¬isFirst i) (x0 : Vec F S10000x256 .f32) (x1 : Vec F S512x10000 .f32) (x2 : Vec F S256x64 .f32) (x3 : Vec F S1x64 .f32) (xs : Vec F S10000x64 .f32) (f : arg5.view.ty.Contents (Elt F)) :
    arg5.view.read (Elt F) (arg5.view.writes (Elt F) f (runLater c i arg1 harg1 arg2 harg2 arg3 harg3 arg4 harg4 arg5 harg5 arg6 harg6 hc x0 x1 x2 x3 xs).1) = k0_pay2 x1 xs x3 := by
  rw [View.read_writes_eq_canon _ _ _ (fun y => View.cover_of_tiledL _ S512x64.size (by sl_kernel_rfl) y)]
  unfold runLater; dsimp only; sl_unfold_words
  rw [View.canon_unit_zero hz2]
  simp only [View.readAt_eq_ld, harg2.read_unread, harg4.read_unread, harg6.read_unread,
    View.ld_unit_zero (S := S512x10000) hz2, View.ld_unit_zero (S := S1x64) hz2, View.ld_unit_zero (S := S10000x64) hz2]

end Cert.KernelIdeal.Hand

end
-- ==== Proof.FrameDataKernelIdeal.lean ====
/-
  What the kernel's buffers hold from grid point to grid point: the names the frame proof and the value proof share.

  The grid has twenty points, one per block of 512 adjacency rows; the last block has only 272 rows inside the array.
  * The feature, weight and bias buffers hold their whole arrays at every point.
  * The adjacency buffer holds, at point `t`, block `t` of the adjacency array on the rows that lie inside the array and
    words nothing names on the rows past its end (`adjFill … d`: the block filled out with `d`).
  * The scratch holds anything before the first point and the support matrix `x · W` — the support payload of the whole
    feature and weight arrays — after every point (`sup`): the first point stores it and no later point writes it.
  The invariant carried between points (`PhiS`) says exactly that of the scratch.
-/
import proofs.«170658_g17394617549188_cont_7to1_930_9_alg».proof.Proof.BodyPiecesKernelIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, as the pipeline passes it to the body, and its wholeness. -/
abbrev ms0 (t : Fin cfg0.N) : Memref sig .tc .vmem S10000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x64 .f32 := win0_4.stage (cfg0.slots t 4)
abbrev hs4 (t : Fin cfg0.N) : (ms4 t).IsWhole := hstage0_4 ((cfg0.slots t 4).cast nbuf0_4)
/-- The scratch buffer, whole. -/
abbrev scM : Memref sig .tc .vmem S10000x64 .f32 := Memref.whole cc0_scratch0

/-- The region's own invariant, with the scratch as a whole buffer owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The first grid point. -/
abbrev t0 : Fin cfg0.N := ⟨0, lt_of_lt_of_eq (by decide : 0 < 20) N_0.symm⟩

/-- THE SUPPORT MATRIX as the first point computes it: the support payload of the feature array and the weight array. -/
def sup (c : Dev nD) : Vec F S10000x64 .f32 := k0_pay1 (iblk m c 0 t0) (iblk m c 2 t0)

/-- A filler for the rows of the adjacency buffer past the array's end: the zero word (nothing reads it). -/
def zeroFill : S512x10000.Idx → Elt F .f32 := fun _ => Scalar.ofBits .f32 0#32

/-- The adjacency buffer at point `t`: block `t` of the array on the rows inside it, `d` on the rows past its end. -/
def adjFill (c : Dev nD) (t : Fin cfg0.N) (d : S512x10000.Idx → Elt F .f32) : Vec F S512x10000 .f32 :=
  (cfg0.win 1).fill (cfg0.grid.coords t) d (iblk m c 1 t)

/-- Its part inside the array is the block, whatever the filler. -/
theorem cut_adjFill (c : Dev nD) (t : Fin cfg0.N) (d : S512x10000.Idx → Elt F .f32) :
    (cfg0.win 1).cut (cfg0.grid.coords t) (adjFill m c t d) = iblk m c 1 t :=
  (cfg0.win 1).cut_fill _ _ _

/-- Filling the part inside the array of one filled block out with another filler gives the block filled with that one. -/
theorem fill_cut_adjFill (c : Dev nD) (t : Fin cfg0.N) (d d' : S512x10000.Idx → Elt F .f32) :
    (cfg0.win 1).fill (cfg0.grid.coords t) d ((cfg0.win 1).cut (cfg0.grid.coords t) (adjFill m c t d')) = adjFill m c t d := by
  rw [cut_adjFill]; rfl

/-- THE INVARIANT before position `n`: before the first point the region's own (the scratch at anything); afterwards the
    scratch at the support matrix, and the generator register at some state. -/
def PhiS (c : Dev nD) : (n : ℕ) → n ≤ cfg0.N → sProp 𝕄
  | 0, _ => Pipeline.ΦA spec0 c
  | _ + 1, _ => iprop(iprop(owns (c : Thread nD τ) scM fullShare (sup m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scM fullShare (sup m c)) ∗ (∃ r, prngReg c r)) := rfl

theorem PhiS_pos (c : Dev nD) (n : ℕ) (h : n ≤ cfg0.N) (hz : n ≠ 0) :
    PhiS m c n h = iprop(iprop(owns (c : Thread nD τ) scM fullShare (sup m c)) ∗ (∃ r, prngReg c r)) := by
  cases n with
  | zero => exact absurd rfl hz
  | succ n => rfl

/-- The output window is never fetched (it is an output). -/
theorem fetch0_4 : ∀ t : Fin cfg0.N, (cfg0.win 4).fetch t = false :=
  (by decide +kernel : ∀ t : Fin grid0.N, win0_4.fetch t = false)

end Cert.KernelIdeal.Hand

end
-- ==== Proof.FrameExact.lean ====
/-
  The proof data, the body's obligation at every grid point and the run of the pipeline, with every buffer's contents named.

  After the body at point `t`: the feature, weight and bias buffers hold their arrays; the adjacency buffer holds block `t`
  filled out past the array's end; the output buffer holds the result payload of (adjacency buffer, support matrix, bias
  row). Of the adjacency and output buffers only the rows inside the arrays are stated — the rows past the end hold words
  nothing names, and what the body computes from them is never written back. That the rows inside the array of the result
  do not depend on those words is the one property of the payload used here (`RowLocal`): row `p` of the result is a
  function of row `p` of the adjacency buffer alone.
-/
import proofs.«170658_g17394617549188_cont_7to1_930_9_alg».proof.Proof.FrameDataKernelIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- ROW-LOCALITY of the result payload: its rows inside the array do not depend on what fills the adjacency buffer past the
    array's end. -/
def RowLocal : Prop :=
  ∀ (c : Dev nD) (t : Fin cfg0.N) (d d' : S512x10000.Idx → Elt F .f32),
    (cfg0.win 4).cut (cfg0.grid.coords t) (k0_pay2 (adjFill m c t d) (sup m c) (iblk m c 3 t))
      = (cfg0.win 4).cut (cfg0.grid.coords t) (k0_pay2 (adjFill m c t d') (sup m c) (iblk m c 3 t))

/-- What the output buffer holds after the body at point `t` (stated on the rows inside the array). -/
def outBuf (c : Dev nD) (t : Fin cfg0.N) : Vec F S512x64 .f32 :=
  k0_pay2 (adjFill m c t zeroFill) (sup m c) (iblk m c 3 t)

/-- THE PROOF DATA of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => adjFill m c t zeroFill
    | ⟨2, _⟩ => iblk m c 2 t
    | ⟨3, _⟩ => iblk m c 3 t
    | ⟨4, _⟩ => outBuf m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = adjFill m c t zeroFill := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBuf m c t := by dsimp only [dats]

/-- The three whole-array inputs are found at their arrays at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The adjacency buffer is fetched at every point: the body finds block `t` filled out with what the buffer held. -/
theorem before0_1 (c : Dev nD) (t : Fin cfg0.N) (d) : (dats m 0 c).before 1 t d = adjFill m c t d := by
  unfold Dat.before; rw [if_pos (fetch0_1 t)]
  unfold Dat.fetched Dat.blockOf adjFill iblk
  rw [A_eq]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare ((cfg0.win 1).fill (cfg0.grid.coords t) d ((cfg0.win 1).cut (cfg0.grid.coords t) ((dats m 0 c).after 1 t))))
    ∗ owns (c : Thread nD τ) (ms2 t) fullShare ((dats m 0 c).after 2 t)
    ∗ owns (c : Thread nD τ) (ms3 t) fullShare ((dats m 0 c).after 3 t)
    ∗ (∃ d, owns (c : Thread nD τ) (ms4 t) fullShare ((cfg0.win 4).fill (cfg0.grid.coords t) d ((cfg0.win 4).cut (cfg0.grid.coords t) ((dats m 0 c).after 4 t)))))

set_option maxHeartbeats 4000000 in
theorem sound_body (hloc : RowLocal m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3, after0_4, fill_cut_adjFill]
  rw [show (dats m 0 c).owesAt () t.succ = (dats m 0 c).owesAt () t.castSucc from rfl]
  rw [show (dats m 0 c).Φ t.succ = PhiS m c (t.val + 1) t.isLt from rfl, PhiS_succ]
  by_cases hz : t.val = 0
  · have ht : t = t0 := Fin.ext hz
    subst ht
    rw [PhiS_castSucc m c t0, PhiS_zero m c _ _ rfl, PhiA_eq]
    iintro ⟨⟨HS, Hg⟩, Ho, ⟨%d0, H0⟩, ⟨%d1, H1⟩, ⟨%d2, H2⟩, ⟨%d3, H3⟩, ⟨%d4, H4⟩⟩
    iapply ((runFirst c (grid0.coords t0) _ _ _ _ _ _ _ _ _ _ _ _ ((isFirst_iff t0).mpr rfl) (iblk m c 0 t0) (adjFill m c t0 d1) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact scr_first _ _ _ _ _ _ _ _ _ _ _ _ _ _ _ _ _ _ _ _
      iexact Hg
    isplitl [Ho]; · iexact Ho
    isplitl [H0]; · iexact H0
    isplitl [H1]
    · iexists d1
      have e : (win0 1).fill (grid0.coords t0) d1 ((win0 1).cut (grid0.coords t0) (adjFill m c t0 zeroFill)) = adjFill m c t0 d1 :=
        fill_cut_adjFill m c t0 d1 zeroFill
      first | iexact H1 | (rw [e]; iexact H1)
    isplitl [H2]; · iexact H2
    isplitl [H3]; · iexact H3
    iexists (k0_pay2 (adjFill m c t0 d1) (sup m c) (iblk m c 3 t0))
    unfold owns; iexists _; isplitr
    swap; · iexact H4
    ipureintro
    refine (out_first _ _ _ _ _ _ _ _ _ _ _ _ _ _ _ _ _ _ _ _).trans ?_
    exact ((cfg0.win 4).fill_congr_cut (cfg0.grid.coords t0) (hloc c t0 d1 zeroFill)).symm
  · rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply ((runLater c (grid0.coords t) _ _ _ _ _ _ _ _ _ _ _ _ (fun h => hz ((isFirst_iff t).mp h)) (iblk m c 0 t) (adjFill m c t d1) (iblk m c 2 t) (iblk m c 3 t) (sup m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hg]
    · isplitl [HS]; · iexact HS
      iexact Hg
    isplitl [Ho]; · iexact Ho
    isplitl [H0]; · iexact H0
    isplitl [H1]
    · iexists d1
      have e : (win0 1).fill (grid0.coords t) d1 ((win0 1).cut (grid0.coords t) (adjFill m c t zeroFill)) = adjFill m c t d1 :=
        fill_cut_adjFill m c t d1 zeroFill
      first | iexact H1 | (rw [e]; iexact H1)
    isplitl [H2]; · iexact H2
    isplitl [H3]; · iexact H3
    iexists (k0_pay2 (adjFill m c t d1) (sup m c) (iblk m c 3 t))
    unfold owns; iexists _; isplitr
    swap; · iexact H4
    ipureintro
    refine (out_later _ _ _ _ _ _ _ _ _ _ _ _ _ _ _ _ _ _ _ _ _).trans ?_
    exact ((cfg0.win 4).fill_congr_cut (cfg0.grid.coords t) (hloc c t d1 zeroFill)).symm

end Cert.KernelIdeal.Hand

end
-- ==== Proof.FrameRun.lean ====
/-
  The run of the pipeline from the body's obligation, and the frame: every weakly fair execution terminates, nothing faults,
  and the four argument arrays end as they began.
-/
import proofs.«170658_g17394617549188_cont_7to1_930_9_alg».proof.Proof.FrameExact

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation at every point: the windows opened one by one, then the body at the point. -/
theorem body_obligation (hloc : RowLocal m) (c : Dev nD) :
    BodyObligationLoose (dats (F := F) m 0 c) (defs₀ (F := F)) Variants.none () Set.univ := fun t => by
  rw [bigSep_W0, bigSep_W0]
  exact sound_body m hloc c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the region's own back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 20 := N_0; omega), PhiA_eq]
  iintro ⟨HS, Hg⟩
  isplitl [HS]
  · iexists _; iexact HS
  iexact Hg

set_option backward.isDefEq.respectTransparency.types false in
/-- THE RUN: from any memory with zero counters every weakly fair execution of the program terminates, and every final state
    has each array of the pipeline at what the write-backs of the proof data leave and every other buffer as the region found it. -/
theorem run_main (hloc : RowLocal m) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m) (hin := hin m) (hout := hout m)

/-- THE FRAME: the program runs and its four argument arrays end unchanged. -/
theorem frame (hloc : RowLocal m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ hloc)

end Cert.KernelIdeal.Hand

end
-- ==== Proof.Spec.lean ====
/-
  A graph-convolution output layer followed by a row-wise log-softmax, as one function of its four arrays, over the
  extended reals.

  For node features `x : 10000 × 256`, a dense adjacency `adj : 10000 × 10000`, weights `W : 256 × 64` and a bias `b : 64`:
    support[k, j] = ∑ f, x[k, f] · W[f, j]
    logit[r, j]   = (∑ k, adj[r, k] · support[k, j]) + b[j]
    out[r, j]     = (logit[r, j] − M r) − log (∑ j', exp (logit[r, j'] − M r)),   M r = sup over j' of logit[r, j'].
  Row `r` of the result depends on row `r` of `adj` only (and on all of `x`, `W`, `b`): this is what lets the rows be
  computed in blocks, and what makes rows of a block that lie past the array's end irrelevant.
-/
import Idealize.ShloMosaic.PureOps.Ideal
import Idealize.ShloMosaic.Lib.ValueIdx

noncomputable section

open scoped BigOperators

namespace Gcn

open Idealize.ShloMosaic Idealize.ShloMosaic.ValueIdx

/-- `support[k, j] = ∑ f, x[k, f] · W[f, j]`, for a feature matrix of any number `n` of rows. -/
def support {n : ℕ} (x : (⟨2, ![n, 256]⟩ : Shape).Idx → EReal) (W : (⟨2, ![256, 64]⟩ : Shape).Idx → EReal) :
    (⟨2, ![n, 64]⟩ : Shape).Idx → EReal :=
  fun i => ∑ f : Fin 256, x (ix2 (i 0) f) * W (ix2 f (i 1))

/-- One row of logits from one row of adjacency weights: `(∑ k, a[k] · s[k, j]) + b[j]`. -/
def logitRow (a : Fin 10000 → EReal) (s : (⟨2, ![10000, 64]⟩ : Shape).Idx → EReal) (b : Fin 64 → EReal) (j : Fin 64) : EReal :=
  (∑ k : Fin 10000, a k * s (ix2 k j)) + b j

/-- The log-softmax of one row of 64 logits: `(z j − sup z) − log ∑ exp (z j' − sup z)`. -/
def logSoftmaxRow (z : Fin 64 → EReal) (j : Fin 64) : EReal :=
  (z j - Finset.univ.sup z) - Ideal.log (∑ j' : Fin 64, Ideal.exp (z j' - Finset.univ.sup z))

/-- The layer's result row computed from one row `a` of adjacency weights, the support matrix `s` and the bias. -/
def outRow (a : Fin 10000 → EReal) (s : (⟨2, ![10000, 64]⟩ : Shape).Idx → EReal) (b : Fin 64 → EReal) (j : Fin 64) : EReal :=
  logSoftmaxRow (logitRow a s b) j

/-- THE LAYER as one function of the four argument arrays. -/
def layer (x : (⟨2, ![10000, 256]⟩ : Shape).Idx → EReal) (adj : (⟨2, ![10000, 10000]⟩ : Shape).Idx → EReal)
    (W : (⟨2, ![256, 64]⟩ : Shape).Idx → EReal) (b : (⟨1, ![64]⟩ : Shape).Idx → EReal) : (⟨2, ![10000, 64]⟩ : Shape).Idx → EReal :=
  fun i => outRow (fun k => adj (ix2 (i 0) k)) (support x W) (fun j => b (ix1 j)) (i 1)

end Gcn

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«170658_g17394617549188_cont_7to1_930_9_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«170658_g17394617549188_cont_7to1_930_9_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.KernelPay.lean ====
/-
  The arithmetic of one grid step of the fused layer, read entry by entry over the extended reals.

  A grid step computes two pure values. The first is the whole support matrix: a matrix product accumulated into the zero
  array, so its entry (k, j) is the sum over the 256 features f of x[k, f] · W[f, j]. The second is a block of 512 result rows:
  a matrix product of the block's 512 rows of adjacency weights with the support matrix, plus the bias row repeated down the
  block, followed by a log-softmax taken along each row (subtract the row's maximum, exponentiate, sum along the row, take the
  logarithm, subtract). Every step after the product acts on one row at a time: the maximum and the sum run over the 64 entries
  of a row, and their per-row results are spread back over that same row. Hence row p of the block is a function of row p of the
  adjacency block alone (and of the whole support matrix and the bias); that is the form in which the second value is stated.
-/
import proofs.«170658_g17394617549188_cont_7to1_930_9_alg».proof.Proof.Gen.KernelIdeal.Skeleton
import proofs.«170658_g17394617549188_cont_7to1_930_9_alg».proof.Proof.Spec
import proofs.«170658_g17394617549188_cont_7to1_930_9_alg».proof.Proof.LibDotCols
import proofs.«170658_g17394617549188_cont_7to1_930_9_alg».proof.Proof.LibLaneRows
import proofs.«170658_g17394617549188_cont_7to1_930_9_alg».proof.Proof.LibHostMax
import proofs.«170658_g17394617549188_cont_7to1_930_9_alg».proof.Proof.LibColumns
import Idealize.ShloMosaic.Lib.ValueLayout

noncomputable section

open scoped BigOperators

namespace Cert.KernelIdeal.Pay

open Idealize.ShloMosaic Idealize.ShloMosaic.ValueIdx Cert.KernelIdeal

variable [Facts]
open Facts₀ Facts

/-- The exponential and the logarithm of a vector act entry by entry. -/
theorem exp_apply {s : Shape} (v : FVec Ideal s .f32) (i : s.Idx) : Idealize.ShloMosaic.exp v i = Ideal.exp (v i) := rfl
theorem log_apply {s : Shape} (v : FVec Ideal s .f32) (i : s.Idx) : Idealize.ShloMosaic.log v i = Ideal.log (v i) := rfl

/-- THE SUPPORT MATRIX. The first value of a grid step is the product of the features with the weights: entry (k, j) is
    the sum over f of x[k, f] · W[f, j]. The cast that follows the product keeps the shape and changes nothing. -/
theorem pay1_eq (x : Vec Ideal S10000x256 .f32) (W : Vec Ideal S256x64 .f32) :
    Gen.k0_pay1 (F := Ideal) x W = Gcn.support x W := by
  funext i
  obtain ⟨p, q, rfl⟩ : ∃ (p : Fin 10000) (q : Fin 64), i = ix2 p q := ⟨i 0, i 1, eq_ix2 i⟩
  unfold Gen.k0_pay1
  rw [shapeCast_self]
  exact Cert.Lib.DotCols.matmul_cols_apply _ rfl none x W p q

/-- THE ROW MAXIMUM, spread back over its row. Reducing a 512 × 64 array along its rows with a maximum started from −∞, casting
    the 512 results to a column and repeating the column across 64 places gives, at (p, t), the supremum of row p. -/
theorem rowMax_apply (z : FVec Ideal S512x64 .f32) (p : Fin 512) (t : Fin 64) :
    broadcastTo S512x64
        (shapeCast S512x1 (multiReduction (F := Ideal) .maximumf [1] S512 z 0xFF800000#32 reduces_S512x64_S512 (.inl rfl) rfl)
          shapeCasts_S512_S512x1) broadcasts_S512x1_S512x64 (ix2 p t)
      = (Finset.univ : Finset (Fin 64)).sup fun k => z (ix2 p k) := by
  rw [broadcastTo_a1_ab_apply, shapeCast_a_a1_apply]
  exact HostMax.multiReduction_rows z reduces_S512x64_S512 (.inl rfl) rfl p

/-- THE LOGARITHM OF THE ROW SUM, spread back over its row. Summing a 512 × 64 array along its rows from zero, casting to a
    column, taking logarithms and repeating the column across 64 places gives, at (p, t), the logarithm of the sum of row p. -/
theorem rowLogSum_apply (y : FVec Ideal S512x64 .f32) (p : Fin 512) (t : Fin 64) :
    broadcastTo S512x64
        (Idealize.ShloMosaic.log (shapeCast S512x1
          (multiReduction (F := Ideal) .add [1] S512 y 0x00000000#32 reduces_S512x64_S512 (.inl rfl) rfl) shapeCasts_S512_S512x1))
        broadcasts_S512x1_S512x64 (ix2 p t)
      = Ideal.log (∑ k : Fin 64, y (ix2 p k)) := by
  rw [broadcastTo_a1_ab_apply, log_apply, shapeCast_a_a1_apply]
  exact congrArg Ideal.log (LaneRows.multiReduction_add_rows y 0x00000000#32 reduces_S512x64_S512 (.inl rfl) rfl p)

/-- THE LOG-SOFTMAX ALONG ROWS. For a 512 × 64 array z: subtract each row's maximum, exponentiate, sum along rows, take the
    logarithm, subtract. Entry (p, q) of the result is the log-softmax of row p of z at place q; no other row enters. -/
theorem logSoftmax_apply (z : FVec Ideal S512x64 .f32) (p : Fin 512) (q : Fin 64) :
    subf
        (subf z (broadcastTo S512x64
          (shapeCast S512x1 (multiReduction (F := Ideal) .maximumf [1] S512 z 0xFF800000#32 reduces_S512x64_S512 (.inl rfl) rfl)
            shapeCasts_S512_S512x1) broadcasts_S512x1_S512x64))
        (broadcastTo S512x64
          (Idealize.ShloMosaic.log (shapeCast S512x1
            (multiReduction (F := Ideal) .add [1] S512
              (Idealize.ShloMosaic.exp (subf z (broadcastTo S512x64
                (shapeCast S512x1 (multiReduction (F := Ideal) .maximumf [1] S512 z 0xFF800000#32 reduces_S512x64_S512 (.inl rfl) rfl)
                  shapeCasts_S512_S512x1) broadcasts_S512x1_S512x64)))
              0x00000000#32 reduces_S512x64_S512 (.inl rfl) rfl) shapeCasts_S512_S512x1))
          broadcasts_S512x1_S512x64) (ix2 p q)
      = Gcn.logSoftmaxRow (fun j => z (ix2 p j)) q := by
  rw [subf_apply, subf_apply, rowLogSum_apply, rowMax_apply]
  unfold Gcn.logSoftmaxRow
  refine congrArg (fun w => (z (ix2 p q) - (Finset.univ : Finset (Fin 64)).sup fun k => z (ix2 p k)) - Ideal.log w) ?_
  refine Finset.sum_congr rfl fun k _ => ?_
  rw [exp_apply, subf_apply, rowMax_apply]

/-- THE LOGITS. The product of the block's adjacency rows with the support matrix, accumulated into the zero array, plus the
    bias row repeated down the block: entry (p, j) is (∑ k, a[p, k] · s[k, j]) + b[0, j], a function of row p of a. -/
theorem logits_apply (a : Vec Ideal S512x10000 .f32) (s : Vec Ideal S10000x64 .f32) (b : Vec Ideal S1x64 .f32)
    (p : Fin 512) (j : Fin 64) :
    addf (matmul (F := Ideal) (φ₁ := .f32) (φ₂ := .f32) dot_S512x10000_S10000x64_S512x64_1_0_0_1_n_n none a s (constant S512x64 .f32 0x00000000#32))
        (broadcastTo S512x64 (shapeCast S1x64 b shapeCasts_S1x64_S1x64) broadcasts_S1x64_S512x64) (ix2 p j)
      = Gcn.logitRow (fun k => a (ix2 p k)) s (fun j => b (ix2 (0 : Fin 1) j)) j := by
  rw [addf_apply, shapeCast_self, broadcastTo_1b_ab_apply]
  exact congrArg (· + b (ix2 (0 : Fin 1) j)) (Cert.Lib.DotCols.matmul_cols_apply _ rfl none a s p j)

/-- THE RESULT BLOCK. The second value of a grid step, at (p, q), is the layer's result row computed from row p of the
    adjacency block, the support matrix and the bias row, at place q. Rows of the block do not interact. -/
theorem pay2_apply (a : Vec Ideal S512x10000 .f32) (s : Vec Ideal S10000x64 .f32) (b : Vec Ideal S1x64 .f32)
    (p : Fin 512) (q : Fin 64) :
    Gen.k0_pay2 (F := Ideal) a s b (ix2 p q) = Gcn.outRow (fun k => a (ix2 p k)) s (fun j => b (ix2 (0 : Fin 1) j)) q := by
  unfold Gen.k0_pay2
  refine (logSoftmax_apply _ p q).trans ?_
  unfold Gcn.outRow
  exact congrArg (fun z => Gcn.logSoftmaxRow z q) (funext fun j => logits_apply a s b p j)

end Cert.KernelIdeal.Pay

end
-- ==== Proof.ValueRows.lean ====
/-
  From the blocks to the array: what each grid point writes back is the corresponding block of rows of the layer, and the
  blocks together are the whole result.

  The grid has twenty points. Point t works on rows 512 · t onward: 512 rows at points 0 to 18, and the 272 rows 9728 to 9999
  at point 19, whose block would otherwise run past the array's end. The feature, weight and bias windows hold their whole
  arrays at every point (the bias as the one row of 64 the host made of it), so what is read through them is the array itself.
  The adjacency window holds rows 512 · t onward of the adjacency array on the rows inside the array, and on the rows past
  the end something nothing names. Because row p of the result block is computed from row p of the adjacency buffer alone,
  and only rows inside the array are written back, that unnamed content never reaches the result.
-/
import proofs.«170658_g17394617549188_cont_7to1_930_9_alg».proof.Proof.FrameDataKernelIdeal
import proofs.«170658_g17394617549188_cont_7to1_930_9_alg».proof.Proof.KernelPay
import proofs.«170658_g17394617549188_cont_7to1_930_9_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- The bias row as the grid finds it: the host reshapes the 64 biases into one row of 64. -/
theorem V_bias (c : Dev nD) :
    (V m c main_call0_v0 : S1x64.Idx → EReal) = shapeCast S1x64 (m ((c : Thread nD τ).loc main_arg3)) shapeCasts_S64_S1x64 := by
  dsimp only [Gen.V, Gen.hostOps0]; after_results; rfl

/-- Entry (0, j) of that row is bias j. -/
theorem V_bias_apply (c : Dev nD) (j : Fin 64) :
    (V m c main_call0_v0 : S1x64.Idx → EReal) (ix2 (0 : Fin 1) j) = m ((c : Thread nD τ).loc main_arg3) (ix1 j) := by
  rw [V_bias]
  refine shapeCast_apply (s := S64) (t := S1x64) _ shapeCasts_S64_S1x64 (ix2 (0 : Fin 1) j) (ix1 j) ?_
  show (S64.rowMajor (ix1 j)).val = (S1x64.rowMajor (ix2 (0 : Fin 1) j)).val
  rw [Shape.rowMajor_val_one, Shape.rowMajor_val_two]
  show j.val = 0 * 64 + j.val
  omega

/-- The three windows that hold a whole array sit at block index (0, 0) at every grid point: decided over the twenty points. -/
theorem whole_idx : ∀ t : Fin cfg0.N, win0_0.index t (0 : Fin 2) = 0 ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The feature window's block at any point is the whole feature array: a block at index (0, 0) whose extent is the array's
    reads entry j of the array at j. -/
theorem iblk0_eq (c : Dev nD) (t : Fin cfg0.N) : iblk m c 0 t = V m c main_arg0 := by
  obtain ⟨e0, e1, -⟩ := whole_idx t
  funext j
  show V m c main_arg0 (((cfg0.win 0).blk t).view.emb j) = V m c main_arg0 j
  refine congrArg (V m c main_arg0) (funext fun a => Fin.ext ?_)
  match a with
  | ⟨0, _⟩ => show win0_0.index t (0 : Fin 2) * 10000 + 1 * (j 0).val = (j 0).val; omega
  | ⟨1, _⟩ => show win0_0.index t (1 : Fin 2) * 256 + 1 * (j 1).val = (j 1).val; omega

/-- Likewise the weight window's block is the whole weight array, -/
theorem iblk2_eq (c : Dev nD) (t : Fin cfg0.N) : iblk m c 2 t = V m c main_arg2 := by
  obtain ⟨-, -, e0, e1, -⟩ := whole_idx t
  funext j
  show V m c main_arg2 (((cfg0.win 2).blk t).view.emb j) = V m c main_arg2 j
  refine congrArg (V m c main_arg2) (funext fun a => Fin.ext ?_)
  match a with
  | ⟨0, _⟩ => show win0_2.index t (0 : Fin 2) * 256 + 1 * (j 0).val = (j 0).val; omega
  | ⟨1, _⟩ => show win0_2.index t (1 : Fin 2) * 64 + 1 * (j 1).val = (j 1).val; omega

/-- and the bias window's block is the whole bias row. -/
theorem iblk3_eq (c : Dev nD) (t : Fin cfg0.N) : iblk m c 3 t = V m c main_call0_v0 := by
  obtain ⟨-, -, -, -, e0, e1⟩ := whole_idx t
  funext j
  show V m c main_call0_v0 (((cfg0.win 3).blk t).view.emb j) = V m c main_call0_v0 j
  refine congrArg (V m c main_call0_v0) (funext fun a => Fin.ext ?_)
  match a with
  | ⟨0, _⟩ => show win0_3.index t (0 : Fin 2) * 1 + 1 * (j 0).val = (j 0).val; omega
  | ⟨1, _⟩ => show win0_3.index t (1 : Fin 2) * 64 + 1 * (j 1).val = (j 1).val; omega

/-- THE SUPPORT MATRIX the first point stores is x · W of the whole feature and weight arrays. -/
theorem sup_eq (c : Dev nD) : sup (F := Ideal) m c = Gcn.support (V m c main_arg0) (V m c main_arg2) := by
  unfold sup
  rw [iblk0_eq, iblk2_eq]
  exact Pay.pay1_eq _ _

/-- The adjacency window and the result window move together, decided over the twenty points: at point t both sit at block
    row t and block column 0; they keep the same number of rows inside the array — 512 at points 0 to 18, and 272 at point 19,
    where 19 · 512 + 272 = 10000 —; the adjacency block keeps all 10000 columns and the result block all 64. -/
theorem row_facts : ∀ t : Fin cfg0.N, win0_1.index t (0 : Fin 2) = t.val ∧ win0_1.index t (1 : Fin 2) = 0
    ∧ win0_4.index t (0 : Fin 2) = t.val ∧ win0_4.index t (1 : Fin 2) = 0
    ∧ win0_1.xsize (grid0.coords t) (0 : Fin 2) = win0_4.xsize (grid0.coords t) (0 : Fin 2)
    ∧ win0_1.xsize (grid0.coords t) (1 : Fin 2) = 10000
    ∧ win0_4.xsize (grid0.coords t) (1 : Fin 2) = 64
    ∧ (t.val < 19 → win0_4.xsize (grid0.coords t) (0 : Fin 2) = 512)
    ∧ (t.val = 19 → win0_4.xsize (grid0.coords t) (0 : Fin 2) = 272) :=
  (by decide +kernel : ∀ t : Fin grid0.N, _)

/-- A result row is a function of its four arguments. -/
theorem outRow_congr {a a' : Fin 10000 → EReal} {s s' : (⟨2, ![10000, 64]⟩ : Shape).Idx → EReal} {b b' : Fin 64 → EReal}
    {q q' : Fin 64} (ha : a = a') (hs : s = s') (hb : b = b') (hq : q = q') : Gcn.outRow a s b q = Gcn.outRow a' s' b' q' := by
  subst ha hs hb hq; rfl

/-- BLOCK t OF THE RESULT IS BLOCK t OF THE LAYER. Entry (p, q) of the part of the block inside the array is the layer's
    entry at array row 512 · t + p and column q. The payload's row p depends on row p of the adjacency buffer only, and that
    row lies inside the array (p is below the number of rows kept), so it is row 512 · t + p of the adjacency array whatever
    fills the rows past the array's end; the support matrix and the bias row are the whole arrays'. -/
theorem out_rows (c : Dev nD) (t : Fin cfg0.N) (d : S512x10000.Idx → EReal) :
    (cfg0.win 4).cut (cfg0.grid.coords t) (k0_pay2 (F := Ideal) (adjFill m c t d) (sup m c) (iblk m c 3 t))
      = ((cfg0.win 4).blk t).view.read (Elt Ideal)
          (Gcn.layer (V m c main_arg0) (V m c main_arg1) (V m c main_arg2) (m ((c : Thread nD τ).loc main_arg3))) := by
  obtain ⟨i10, i11, i40, i41, xs0, xs11, xs41, -, -⟩ := row_facts t
  funext j
  have hj0 : (j 0).val < win0_4.xsize (grid0.coords t) (0 : Fin 2) := (j 0).isLt
  have hj1 : (j 1).val < win0_4.xsize (grid0.coords t) (1 : Fin 2) := (j 1).isLt
  have hle : win0_4.xsize (grid0.coords t) (0 : Fin 2) ≤ 512 := win0_4.xsize_le (grid0.coords t) 0
  obtain ⟨p, hpv⟩ : ∃ p : Fin 512, p.val = (j 0).val := ⟨⟨(j 0).val, by omega⟩, rfl⟩
  obtain ⟨q, hqv⟩ : ∃ q : Fin 64, q.val = (j 1).val := ⟨⟨(j 1).val, by omega⟩, rfl⟩
  have hx : (cfg0.win 4).xinj (cfg0.grid.coords t) j = ix2 p q := funext fun a => Fin.ext (by
    match a with
    | ⟨0, _⟩ => exact hpv.symm
    | ⟨1, _⟩ => exact hqv.symm)
  show k0_pay2 (F := Ideal) (adjFill m c t d) (sup m c) (iblk m c 3 t) ((cfg0.win 4).xinj (cfg0.grid.coords t) j)
     = Gcn.layer (V m c main_arg0) (V m c main_arg1) (V m c main_arg2) (m ((c : Thread nD τ).loc main_arg3))
        (((cfg0.win 4).blk t).view.emb j)
  rw [hx]
  refine (Pay.pay2_apply _ _ _ p q).trans ?_
  have hi0 : ((((cfg0.win 4).blk t).view.emb j) 0).val = t.val * 512 + p.val := by
    show win0_4.index t (0 : Fin 2) * 512 + 1 * (j 0).val = _; omega
  have hi1 : q = (((cfg0.win 4).blk t).view.emb j) 1 :=
    Fin.ext (by show q.val = win0_4.index t (1 : Fin 2) * 64 + 1 * (j 1).val; omega)
  have ha : (fun k => adjFill m c t d (ix2 p k)) = fun k => V m c main_arg1 (ix2 ((((cfg0.win 4).blk t).view.emb j) 0) k) :=
    funext fun k => by
      have hmv : (cfg0.win 1).moved (cfg0.grid.coords t) (ix2 p k) = true :=
        ((cfg0.win 1).moved_iff _ _).mpr fun a => by
          match a with
          | ⟨0, _⟩ => show p.val < win0_1.xsize (grid0.coords t) (0 : Fin 2); omega
          | ⟨1, _⟩ => show k.val < win0_1.xsize (grid0.coords t) (1 : Fin 2); have := k.isLt; omega
      unfold adjFill Window.fill
      rw [dif_pos hmv]
      show V m c main_arg1 (((cfg0.win 1).blk t).view.emb _) = _
      refine congrArg (V m c main_arg1) (funext fun a => Fin.ext ?_)
      match a with
      | ⟨0, _⟩ => show win0_1.index t (0 : Fin 2) * 512 + 1 * p.val = ((((cfg0.win 4).blk t).view.emb j) 0).val; omega
      | ⟨1, _⟩ => show win0_1.index t (1 : Fin 2) * 10000 + 1 * k.val = k.val; omega
  have hb : (fun j' => iblk m c 3 t (ix2 (0 : Fin 1) j')) = fun j' => m ((c : Thread nD τ).loc main_arg3) (ix1 j') :=
    funext fun j' => by rw [iblk3_eq]; exact V_bias_apply m c j'
  exact outRow_congr ha (sup_eq m c) hb hi1

/-- ROWS OF A BLOCK DO NOT SEE THE FILLER: two fillers of the rows past the array's end give the same part inside the array. -/
theorem out_rows_filler (c : Dev nD) (t : Fin cfg0.N) (d d' : S512x10000.Idx → EReal) :
    (cfg0.win 4).cut (cfg0.grid.coords t) (k0_pay2 (F := Ideal) (adjFill m c t d) (sup m c) (iblk m c 3 t))
      = (cfg0.win 4).cut (cfg0.grid.coords t) (k0_pay2 (F := Ideal) (adjFill m c t d') (sup m c) (iblk m c 3 t)) :=
  (out_rows m c t d).trans (out_rows m c t d').symm

/-- An index of the result array is in point t's block iff on each axis it lies from the block's start up to the number of
    coordinates the block keeps inside the array. -/
theorem mem_out_blk (t : Fin cfg0.N) (i : S10000x64.Idx) :
    i ∈ ((cfg0.win 4).blk t).view.set ↔ ∀ a : Fin 2, win0_4.index t a * S512x64.size a ≤ (i a).val
      ∧ (i a).val < win0_4.index t a * S512x64.size a + win0_4.xsize (grid0.coords t) a := by
  show i ∈ ((View.whole main_v0).slice (win0_4.rect t)).set ↔ _
  rw [View.set_slice_whole, Rect.mem_set_unit]
  exact Iff.rfl

/-- THE BLOCKS COVER THE ARRAY. Row r of the result lies in the block of point r / 512: rows 512 · t to 512 · t + 511 for
    t below 19, and rows 9728 to 9999 for t = 19; every point writes its block back. -/
theorem out_cover (i : S10000x64.Idx) :
    ∃ t : Fin cfg0.N, (cfg0.win 4).flush t = true ∧ i ∈ ((cfg0.win 4).blk t).view.set := by
  have hi0 : (i 0).val < 10000 := (i 0).isLt
  have hi1 : (i 1).val < 64 := (i 1).isLt
  have ht : (i 0).val / 512 < cfg0.N := lt_of_lt_of_eq (by omega : (i 0).val / 512 < 20) N_0.symm
  refine ⟨⟨(i 0).val / 512, ht⟩, flush0_4 _, ?_⟩
  obtain ⟨-, -, i40, i41, -, -, xs41, xlt, xeq⟩ := row_facts ⟨(i 0).val / 512, ht⟩
  have i40' : win0_4.index ⟨(i 0).val / 512, ht⟩ (0 : Fin 2) = (i 0).val / 512 := i40
  rw [mem_out_blk]
  intro a
  match a with
  | ⟨0, _⟩ =>
    show win0_4.index ⟨(i 0).val / 512, ht⟩ (0 : Fin 2) * 512 ≤ (i 0).val
      ∧ (i 0).val < win0_4.index ⟨(i 0).val / 512, ht⟩ (0 : Fin 2) * 512 + win0_4.xsize (grid0.coords ⟨(i 0).val / 512, ht⟩) (0 : Fin 2)
    rcases Nat.lt_or_ge ((i 0).val / 512) 19 with h | h
    · rw [xlt h]; omega
    · rw [xeq (by omega : (i 0).val / 512 = 19)]; omega
  | ⟨1, _⟩ =>
    show win0_4.index ⟨(i 0).val / 512, ht⟩ (1 : Fin 2) * 64 ≤ (i 1).val
      ∧ (i 1).val < win0_4.index ⟨(i 0).val / 512, ht⟩ (1 : Fin 2) * 64 + win0_4.xsize (grid0.coords ⟨(i 0).val / 512, ht⟩) (1 : Fin 2)
    omega

end Cert.KernelIdeal.Hand

end
-- ==== Proof.ValueFinal.lean ====
/-
  The kernel's result array, in closed form, and the kernel's run with its result named.

  Point `t` writes back the rows inside the array of the result payload of (adjacency block `t`, support matrix, bias row);
  those rows are rows `512·t …` of the layer applied to the four argument arrays, whatever filled the adjacency buffer past
  the array's end; and the twenty blocks cover the 10000 rows. So after the run the result array holds the layer of the
  arguments.
-/
import proofs.«170658_g17394617549188_cont_7to1_930_9_alg».proof.Proof.FrameRun
import proofs.«170658_g17394617549188_cont_7to1_930_9_alg».proof.Proof.ValueRows

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- Over the extended reals the result payload is row-local: both fillers give the layer's rows. -/
theorem rowLocal : RowLocal (F := Ideal) m := fun c t d d' =>
  (out_rows m c t d).trans (out_rows m c t d').symm

/-- THE LAYER of the argument arrays as the region finds them. -/
abbrev layerOf (c : Dev nD) : S10000x64.Idx → EReal :=
  Gcn.layer (V m c main_arg0) (V m c main_arg1) (V m c main_arg2) (m ((c : Thread nD τ).loc main_arg3))

/-- What point `t` writes back is block `t` of the layer. -/
theorem flushed_eq (c : Dev nD) (t : Fin cfg0.N) :
    (dats m 0 c).flushed 4 t = ((cfg0.win 4).blk t).view.read (Elt Ideal) (layerOf m c) := by
  show (cfg0.win 4).cut (cfg0.grid.coords t) ((dats m 0 c).after 4 t) = _
  rw [after0_4]
  unfold outBuf
  exact out_rows m c t (zeroFill (F := Ideal))

/-- THE RESULT ARRAY after the run is the layer of the argument arrays. -/
theorem final (c : Dev nD) : (dats m 0 c).arrAt 4 cfg0.N = layerOf m c :=
  (dats m 0 c).arrAt_eq_of_cover 4 (layerOf m c) (fun t _ => flushed_eq m c t) (fun i => out_cover i)

/-- The layer of the arrays as the region finds them is the layer of the launch contents: no host operation before the region
    writes an argument. -/
theorem layerOf_eq (c : Dev nD) :
    layerOf m c = Gcn.layer (m ((c.tc : Thread nD τ).loc main_arg0)) (m ((c.tc : Thread nD τ).loc main_arg1))
      (m ((c.tc : Thread nD τ).loc main_arg2)) (m ((c.tc : Thread nD τ).loc main_arg3)) := by
  have e0 := V_main_arg0 m c
  have e1 := V_main_arg1 m c
  have e2 := V_main_arg2 m c
  show Gcn.layer (V m c main_arg0) (V m c main_arg1) (V m c main_arg2) _ = _
  rw [e0, e1, e2]

/-- After the run the result array is what the write-backs leave. -/
theorem post4 (r : PUnit × MemSt nD τ sig (Elt Ideal)) (h : Pipeline.FramePost cfgs (dats m) 0 (V m) r) (c : Dev nD) :
    r.2.mem ((c : Thread nD τ).loc main_v0) = (dats m 0 c).arrAt 4 cfg0.N :=
  (h c).1 4

/-- After the run each argument is as launched: an input window's array is never written, and the bias vector bypasses the region. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- THE KERNEL'S RUN, its result named: every weakly fair execution terminates with the result array at the layer of the
    launch contents of the four arguments, and the arguments unchanged. -/
theorem value_run :
    θ_run defs (onTc (τ := τ) (main (F := Ideal))) ⟨m, fun _ => 0, ρ⟩ (fun r => ∀ c : Dev nD,
      r.2.mem ((c.tc : Thread nD τ).loc main_v0)
          = Gcn.layer (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(post4 m r h c).trans ((final m c).trans (layerOf_eq m c)),
     kept_main_arg0 m r h c, kept_main_arg1 m r h c, kept_main_arg2 m r h c, kept_main_arg3 m r h c⟩)
    (run_main m ρ (rowLocal m))

end Cert.KernelIdeal.Hand

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«170658_g17394617549188_cont_7to1_930_9_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.RefLayer.lean ====
/-
  The reference computation of the layer, read entry by entry over the extended reals, is the specification.

  The reference forms the support matrix x · W and the logits adj · (x · W) + b with two plain matrix products and a bias row
  repeated down the rows, then takes a log-softmax along each row: the row's maximum (a fold of max from −∞ over the 64 entries
  of the row, i.e. their supremum; a further maximum with −∞ changes nothing), the shifted row, the sum over the row of the
  exponentials of the shifted entries (started from zero, which adds nothing), its logarithm, and the final subtraction.
  Every quantity below is stated at coordinates: a row r among the 10000 and a place j among the 64.
-/
import proofs.«170658_g17394617549188_cont_7to1_930_9_alg».proof.Defs
import proofs.«170658_g17394617549188_cont_7to1_930_9_alg».proof.Proof.RefReadP
import proofs.«170658_g17394617549188_cont_7to1_930_9_alg».proof.Proof.Spec
import proofs.«170658_g17394617549188_cont_7to1_930_9_alg».proof.Proof.LibDotColsHost
import proofs.«170658_g17394617549188_cont_7to1_930_9_alg».proof.Proof.LibHostMax

noncomputable section

open scoped BigOperators

namespace Cert.ReferenceIdeal.RefLayer

open Idealize.ShloMosaic Idealize.ShloMosaic.ValueIdx Cert.ReferenceIdeal Cert.ReferenceIdeal.Gen Cert.ReferenceIdeal.ReadP

/-- The array types of the four arguments and of the 10000 × 64 intermediate results, over the extended reals. -/
abbrev X0 : Type := (⟨S10000x256, .f32⟩ : BufTy).Contents (Elt Ideal)
abbrev X1 : Type := (⟨S10000x10000, .f32⟩ : BufTy).Contents (Elt Ideal)
abbrev X2 : Type := (⟨S256x64, .f32⟩ : BufTy).Contents (Elt Ideal)
abbrev X3 : Type := (⟨S64, .f32⟩ : BufTy).Contents (Elt Ideal)

/-- The first product is the support matrix: entry (k, j) is ∑ f, x[k, f] · W[f, j]. -/
theorem support_eq (x0 : X0) (x2 : X2) : val_main_v0 (F := Ideal) x0 x2 = Gcn.support x0 x2 := by
  funext i
  obtain ⟨k, j, rfl⟩ : ∃ (k : Fin 10000) (j : Fin 64), i = ix2 k j := ⟨i 0, i 1, eq_ix2 i⟩
  unfold val_main_v0
  exact Cert.Lib.DotColsHost.dotGeneral_cols_apply _ rfl none _ x0 x2 k j

/-- The logits: entry (r, j) is (∑ k, adj[r, k] · support[k, j]) + b[j], a function of row r of adj. -/
theorem logits_apply (x0 : X0) (x1 : X1) (x2 : X2) (x3 : X3) (r : Fin 10000) (j : Fin 64) :
    val_main_v4 (F := Ideal) x0 x1 x2 x3 (ix2 r j)
      = Gcn.logitRow (fun k => x1 (ix2 r k)) (Gcn.support x0 x2) (fun j => x3 (ix1 j)) j := by
  rw [val_main_v4_apply, val_main_v3_apply, val_main_v2_apply]
  unfold val_main_v1
  rw [support_eq]
  have hb : x3 (idx_main_v2 (idx_main_v3 (ix2 r j))) = x3 (ix1 j) :=
    congrArg x3 (funext fun a => match a with | ⟨0, _⟩ => rfl)
  rw [hb]
  exact congrArg (· + x3 (ix1 j))
    (Cert.Lib.DotColsHost.dotGeneral_cols_apply _ rfl none _ x1 (Gcn.support x0 x2) r j)

/-- The row maximum: the fold of max from −∞ over row r of the logits is the supremum of that row, and the further
    maximum with −∞ leaves it unchanged. -/
theorem rowMax_apply (x0 : X0) (x1 : X1) (x2 : X2) (x3 : X3) (r : Fin 10000) :
    val_main_call0_v2 (F := Ideal) x0 x1 x2 x3 (ix1 r)
      = (Finset.univ : Finset (Fin 64)).sup fun k => val_main_v4 (F := Ideal) x0 x1 x2 x3 (ix2 r k) := by
  have hred : S10000x64.Reduces [1] S10000 :=
    ⟨reducesTo_S10000x64_S10000_d1.1, Nat.one_pos, reducesTo_S10000x64_S10000_d1.2⟩
  rw [val_main_call0_v2_apply, val_main_call0_v1_apply, val_main_call0_cst_0_apply]
  unfold val_main_call0_v0
  rw [HostMax.reduce_rows (val_main_v4 (F := Ideal) x0 x1 x2 x3) (val_main_call0_cst (F := Ideal))
    (fun _ => HostMax.ofBits_neg_inf) reducesTo_S10000x64_S10000_d1 hred h_S_ r]
  show max (Ideal.ofBits .f32 0xFF800000#32) _ = _
  rw [HostMax.ofBits_neg_inf]
  exact max_bot_left _

/-- The shifted logits: entry (r, j) is the logit minus the supremum of its row. -/
theorem shifted_apply (x0 : X0) (x1 : X1) (x2 : X2) (x3 : X3) (r : Fin 10000) (j : Fin 64) :
    val_main_call0_v5 (F := Ideal) x0 x1 x2 x3 (ix2 r j)
      = val_main_v4 (F := Ideal) x0 x1 x2 x3 (ix2 r j)
        - (Finset.univ : Finset (Fin 64)).sup fun k => val_main_v4 (F := Ideal) x0 x1 x2 x3 (ix2 r k) := by
  rw [val_main_call0_v5_apply, val_main_call0_v4_apply, val_main_call0_v3_apply]
  have hi : idx_main_call0_v3 (idx_main_call0_v4 (ix2 r j)) = ix1 r := funext fun a => match a with | ⟨0, _⟩ => rfl
  rw [hi, rowMax_apply]
  rfl

/-- The logarithm of the row sum: at (r, j), the logarithm of the sum over row r of the exponentials of the shifted
    logits; the sum starts from zero, which adds nothing. -/
theorem rowLogSum_apply (x0 : X0) (x1 : X1) (x2 : X2) (x3 : X3) (r : Fin 10000) (j : Fin 64) :
    val_main_call0_v10 (F := Ideal) x0 x1 x2 x3 (ix2 r j)
      = Ideal.log (∑ k : Fin 64, Ideal.exp (val_main_call0_v5 (F := Ideal) x0 x1 x2 x3 (ix2 r k))) := by
  rw [val_main_call0_v10_apply, val_main_call0_v9_apply, val_main_call0_v8_apply]
  have hi : idx_main_call0_v8 (idx_main_call0_v10 (ix2 r j)) = ix1 r := funext fun a => match a with | ⟨0, _⟩ => rfl
  rw [hi, val_main_call0_v7_apply, val_main_call0_cst_1_apply]
  show Ideal.log (Ideal.ofBits .f32 0x00000000#32 + _) = _
  rw [Ideal.ofBits_zero_f32, zero_add]
  refine congrArg Ideal.log (Finset.sum_congr rfl fun k _ => ?_)
  have hk : idx_main_call0_v7 (ix1 r) k = ix2 r k := funext fun a => match a with | ⟨0, _⟩ => rfl | ⟨1, _⟩ => rfl
  rw [hk, val_main_call0_v6_apply]
  rfl

/-- THE REFERENCE IS THE LAYER: its result, entry by entry, is the specification's function of the four arrays. -/
theorem ref_eq_layer (x0 : (⟨S10000x256, .f32⟩ : BufTy).Contents (Elt Ideal)) (x1 : (⟨S10000x10000, .f32⟩ : BufTy).Contents (Elt Ideal))
    (x2 : (⟨S256x64, .f32⟩ : BufTy).Contents (Elt Ideal)) (x3 : (⟨S64, .f32⟩ : BufTy).Contents (Elt Ideal)) :
    Cert.ReferenceIdeal.ReadP.val_main_v5 (F := Ideal) x0 x1 x2 x3 = Gcn.layer x0 x1 x2 x3 := by
  funext i
  obtain ⟨r, j, rfl⟩ : ∃ (r : Fin 10000) (j : Fin 64), i = ix2 r j := ⟨i 0, i 1, eq_ix2 i⟩
  rw [val_main_v5_apply, rowLogSum_apply]
  show val_main_call0_v5 (F := Ideal) x0 x1 x2 x3 (ix2 r j) - _ = _
  have hz : (fun k : Fin 64 => val_main_v4 (F := Ideal) x0 x1 x2 x3 (ix2 r k))
      = Gcn.logitRow (fun k => x1 (ix2 r k)) (Gcn.support x0 x2) (fun j => x3 (ix1 j)) :=
    funext fun k => logits_apply x0 x1 x2 x3 r k
  simp only [shifted_apply]
  show _ = Gcn.logSoftmaxRow (Gcn.logitRow (fun k => x1 (ix2 r k)) (Gcn.support x0 x2) (fun j => x3 (ix1 j))) j
  rw [← hz]
  rfl

end Cert.ReferenceIdeal.RefLayer

end
-- ==== Proof.lean ====
/-
  A graph-convolution output layer with a row-wise log-softmax, computed by one pipelined kernel, against the same layer
  written with two matrix products on the host.

  The kernel walks the 10000 × 10000 adjacency matrix in twenty blocks of 512 rows (the last has 272 rows inside the
  array). At the first block it computes the support matrix `x · W` once into a scratch buffer that every later block
  reads; each block then forms `adj_block · support + b` and takes the log-softmax of every row. Over the extended reals
  both programs compute, at row `r` and class `j`,
      (z_j − sup z) − log ∑_{j'} exp (z_{j'} − sup z),   z_j = (∑_k adj[r,k] · ∑_f x[k,f] · W[f,j]) + b[j],
  with the same grouping of the two sums, so no law beyond the definitions joins them (the hypothesis that the inputs are
  finite is not used): the result row depends on row `r` of the adjacency matrix only, which is why the blocks may be taken
  one at a time, and why the rows of the last block that lie past the array's end — whose contents nothing names — do not
  matter: the rows they produce are never written back.

  The three frames: the kernel as printed (any float instance) and its idealization run their body at every grid point —
  the scratch carried from the first point on —, and the host program's run is read off its list of operations. The
  idealization rewrote nothing, so there is nothing to preserve.
-/
import proofs.«170658_g17394617549188_cont_7to1_930_9_alg».proof.Defs
import proofs.«170658_g17394617549188_cont_7to1_930_9_alg».proof.Proof.Gen.Kernel
import proofs.«170658_g17394617549188_cont_7to1_930_9_alg».proof.Proof.Gen.KernelIdeal
import proofs.«170658_g17394617549188_cont_7to1_930_9_alg».proof.Proof.Gen.ReferenceIdeal
import proofs.«170658_g17394617549188_cont_7to1_930_9_alg».proof.Proof.Gen.Pre_finite_inputs
import proofs.«170658_g17394617549188_cont_7to1_930_9_alg».proof.Proof.FrameForget
import proofs.«170658_g17394617549188_cont_7to1_930_9_alg».proof.Proof.ValueFinal
import proofs.«170658_g17394617549188_cont_7to1_930_9_alg».proof.Proof.RefRunP
import proofs.«170658_g17394617549188_cont_7to1_930_9_alg».proof.Proof.RefLayer

noncomputable section

namespace Cert.Proof

open Idealize.ShloMosaic Idealize.ShloMosaic.TcCoe Idealize.SL.Sem

/-- The kernel as printed runs and keeps its arguments (the output buffer's contents left unnamed). -/
theorem frame_p : Cert.frame_Kernel := fun m ρ _ => Cert.Kernel.Hand.frame m ρ

/-- The idealized kernel runs and keeps its arguments (over the extended reals the result rows are row-local). -/
theorem frame_pi : Cert.frame_KernelIdeal := fun m ρ _ =>
  Cert.KernelIdeal.Hand.frame m ρ (Cert.KernelIdeal.Hand.rowLocal m)

/-- The host program runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the layer of the (agreeing) argument arrays in their result. -/
theorem algebraic : Cert.algebraic_KernelIdeal_ReferenceIdeal := by
  intro m ρ m' ρ' _ hagree
  refine ⟨fun c => Gcn.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.value_run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v5_eq _ _ _ _).trans ((Cert.ReferenceIdeal.RefLayer.ref_eq_layer _ _ _ _).trans ?_)
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
